-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S64x1024 : Shape := ⟨2, ![64, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_arg4 : FVec F S64x1024 .f32) (main_arg5 : FVec F S64x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  main_v28

def fn {F : FTy → Type} [FloatOps F] (main_arg0 : FVec F S8x2048x1024 .f32) (main_arg1 : FVec F S8x2048x1024 .f32) (main_arg2 : FVec F S8x2048x1024 .f32) (main_arg3 : FVec F S64x1024 .f32) (main_arg4 : FVec F S64x1024 .f32) (main_arg5 : FVec F S64x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_v13 main_v16
-- ==== Kernel.lean ====
abbrev S8x2048x1024 : Shape := ⟨3, ![8, 2048, 1024]⟩
abbrev S64x1024 : Shape := ⟨2, ![64, 1024]⟩
abbrev S8x2048x64 : Shape := ⟨3, ![8, 2048, 64]⟩
abbrev S8x2048x2048 : Shape := ⟨3, ![8, 2048, 2048]⟩
abbrev S1x256x1024 : Shape := ⟨3, ![1, 256, 1024]⟩
abbrev S1x2048x1024 : Shape := ⟨3, ![1, 2048, 1024]⟩
abbrev S1x256x64 : Shape := ⟨3, ![1, 256, 64]⟩
abbrev S1x256x2048 : Shape := ⟨3, ![1, 256, 2048]⟩
abbrev S2048x64 : Shape := ⟨2, ![2048, 64]⟩
abbrev S2048x1024 : Shape := ⟨2, ![2048, 1024]⟩
abbrev S1024x64 : Shape := ⟨2, ![1024, 64]⟩
abbrev S256x1024 : Shape := ⟨2, ![256, 1024]⟩
abbrev S256x64 : Shape := ⟨2, ![256, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S8x2048x64, .f32⟩
  | .hbm, ⟨7, _⟩ => ⟨S8x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S1x256x64, .f32⟩
  | .local _ .vmem, ⟨8, _⟩ => ⟨S1x256x64, .f32⟩
  | .local _ .vmem, ⟨9, _⟩ => ⟨S1x256x2048, .f32⟩
  | .local _ .vmem, ⟨10, _⟩ => ⟨S1x256x2048, .f32⟩
  | .local _ .vmem, ⟨11, _⟩ => ⟨S2048x64, .f32⟩
  | .local _ .vmem, ⟨12, _⟩ => ⟨S2048x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  transposes_S64x1024_p1_0_S1024x64 : S64x1024.Transposes [1, 0] S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S2048x1024_S1024x64_S2048x64_1_0_0_1_n_n_wf : DotDims.WF S2048x1024 S1024x64 S2048x64 [1] [0] [0] [1] [] []
  dot_S256x1024_S1024x64_S256x64_1_0_0_1_n_n_wf : DotDims.WF S256x1024 S1024x64 S256x64 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .f32 = 32 ∨ (Rect.block (s := S8x2048x1024) S1x2048x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x1024.size a
  hwx0_4 : ∀ i : grid0.Coords, EltTy.bits .f32 = 32 ∨ (Rect.block (s := S64x1024) S64x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x1024.size a
  hwx0_5 : ∀ i : grid0.Coords, EltTy.bits .f32 = 32 ∨ (Rect.block (s := S64x1024) S64x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x64.size a ≤ S8x2048x64.size a
  hwx0_6 : ∀ i : grid0.Coords, EltTy.bits .f32 = 32 ∨ (Rect.block (s := S8x2048x64) S1x256x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x2048.size a ≤ S8x2048x2048.size a
  hwx0_7 : ∀ i : grid0.Coords, EltTy.bits .f32 = 32 ∨ (Rect.block (s := S8x2048x2048) S1x256x2048.size (cc0_transform_7 i) (hinb0_7 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x256x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S64x1024 : Shape := ⟨2, ![64, 1024]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S8x2048x64, .f32⟩
  | .hbm, ⟨7, _⟩ => ⟨S8x2048x64, .f32⟩
  | .hbm, ⟨8, _⟩ => ⟨S8x2048x64, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S64x1024_S8x2048x64_2_1_01_0_n_n_wf : DotDims.WF S8x2048x1024 S64x1024 S8x2048x64 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S64x1024_S8x2048x64_2_1_01_0_n_n : DotDims S8x2048x1024 S64x1024 S8x2048x64 where
  lhsContracting := [2]
  rhsContracting := [1]
  lhsNonContracting := [0, 1]
  rhsNonContracting := [0]
  lhsBatch := []
  rhsBatch := []
  wf := dot_S8x2048x1024_S64x1024_S8x2048x64_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KernelPieces.lean ====
/-
  What one run of the kernel body leaves in its two output blocks and its two scratch arrays, as a function of the
  blocks it loaded.

  The body has two cases. At the first query tile of a batch it projects the batch's keys and values and stores the
  two `[2048, 64]` results whole into the scratch arrays; at the other tiles it stores nothing there. In both cases
  it then loads the query tile, the query weights and the two scratch arrays — in the first case reading back
  exactly what it has just stored — and stores the probabilities block and the attention block whole. Every
  store covers its whole array, so what the array holds afterwards is the stored value, and every load reads a
  whole array, so the stored value is the body's arithmetic applied to the loaded blocks:
      first tile:   scratch 0 = keyProjection (k block, Wk),   scratch 1 = valueProjection (v block, Wv),
                    probabilities = P (q tile, Wq, scratch 0),  attention = A (q tile, Wq, scratch 0, scratch 1)
      other tiles:  the same P and A over the scratch arrays as the tile before left them.
-/
import proofs.«133351_j85907935854651_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords)
  (arg2 : Memref sig .tc .vmem S1x256x1024 .f32) (harg2 : arg2.IsWhole)
  (arg3 : Memref sig .tc .vmem S1x2048x1024 .f32) (harg3 : arg3.IsWhole)
  (arg4 : Memref sig .tc .vmem S1x2048x1024 .f32) (harg4 : arg4.IsWhole)
  (arg5 : Memref sig .tc .vmem S64x1024 .f32) (harg5 : arg5.IsWhole)
  (arg6 : Memref sig .tc .vmem S64x1024 .f32) (harg6 : arg6.IsWhole)
  (arg7 : Memref sig .tc .vmem S64x1024 .f32) (harg7 : arg7.IsWhole)
  (arg8 : Memref sig .tc .vmem S1x256x64 .f32) (harg8 : arg8.IsWhole)
  (arg9 : Memref sig .tc .vmem S1x256x2048 .f32) (harg9 : arg9.IsWhole)
  (arg10 : Memref sig .tc .vmem S2048x64 .f32) (harg10 : arg10.IsWhole)
  (arg11 : Memref sig .tc .vmem S2048x64 .f32) (harg11 : arg11.IsWhole)
  (x0 : Vec F S1x256x1024 .f32) (x1 : Vec F S1x2048x1024 .f32) (x2 : Vec F S1x2048x1024 .f32)
  (x3 : Vec F S64x1024 .f32) (x4 : Vec F S64x1024 .f32) (x5 : Vec F S64x1024 .f32)

/-! ## The first tile of a batch -/

/-- Scratch 0 after the first tile: the projection of the key block by the key weights. -/
theorem first_keys (hc0 : cond0_0 i) :
    sout0_A_0 c i arg2 harg2 arg3 harg3 arg4 harg4 arg5 harg5 arg6 harg6 arg7 harg7 arg8 harg8 arg9 harg9 arg10 harg10 arg11 harg11 hc0 x0 x1 x2 x3 x4 x5
      = k0_pay2 x1 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero zero2]
  simp only [View.readAt_eq_ld, harg3.read_unread, harg6.read_unread, View.ld_unit_zero (S := S1x2048x1024) zero3,
    View.ld_unit_zero (S := S64x1024) zero2]

/-- Scratch 1 after the first tile: the projection of the value block by the value weights. -/
theorem first_values (hc0 : cond0_0 i) :
    sout0_A_1 c i arg2 harg2 arg3 harg3 arg4 harg4 arg5 harg5 arg6 harg6 arg7 harg7 arg8 harg8 arg9 harg9 arg10 harg10 arg11 harg11 hc0 x0 x1 x2 x3 x4 x5
      = k0_pay3 x2 x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero zero2]
  simp only [View.readAt_eq_ld, harg4.read_unread, harg7.read_unread, View.ld_unit_zero (S := S1x2048x1024) zero3,
    View.ld_unit_zero (S := S64x1024) zero2]

/-- The probabilities block after the first tile: over the key projection just stored. -/
theorem first_probs (hc0 : cond0_0 i) :
    out0_A_7 c i arg2 harg2 arg3 harg3 arg4 harg4 arg5 harg5 arg6 harg6 arg7 harg7 arg8 harg8 arg9 harg9 arg10 harg10 arg11 harg11 hc0 x0 x1 x2 x3 x4 x5
      = k0_pay5 x0 x3 (k0_pay2 x1 x4) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero zero3]
  simp only [View.readCov_unit_zero (S := S2048x64) _ zero2, View.readAt_eq_ld, harg2.read_unread, harg3.read_unread, harg5.read_unread,
    harg6.read_unread, View.ld_unit_zero (S := S1x256x1024) zero3, View.ld_unit_zero (S := S1x2048x1024) zero3,
    View.ld_unit_zero (S := S64x1024) zero2]

/-- The attention block after the first tile: over the two projections just stored. -/
theorem first_att (hc0 : cond0_0 i) :
    out0_A_6 c i arg2 harg2 arg3 harg3 arg4 harg4 arg5 harg5 arg6 harg6 arg7 harg7 arg8 harg8 arg9 harg9 arg10 harg10 arg11 harg11 hc0 x0 x1 x2 x3 x4 x5
      = k0_pay1 (k0_pay6 x0 x3 (k0_pay2 x1 x4) (k0_pay3 x2 x5)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero zero3]
  simp only [View.readCov_unit_zero (S := S2048x64) _ zero2, View.readAt_eq_ld, harg2.read_unread, harg3.read_unread, harg4.read_unread,
    harg5.read_unread, harg6.read_unread, harg7.read_unread, View.ld_unit_zero (S := S1x256x1024) zero3,
    View.ld_unit_zero (S := S1x2048x1024) zero3, View.ld_unit_zero (S := S64x1024) zero2]

/-! ## The other tiles -/

variable (xs0 : Vec F S2048x64 .f32) (xs1 : Vec F S2048x64 .f32)

/-- The probabilities block at a later tile: over scratch 0 as the tile before left it. -/
theorem later_probs (hc0 : ¬cond0_0 i) :
    out0_B_7 c i arg2 harg2 arg3 harg3 arg4 harg4 arg5 harg5 arg6 harg6 arg7 harg7 arg8 harg8 arg9 harg9 arg10 harg10 arg11 harg11 hc0 x0 x1 x2 x3 x4 x5 xs0 xs1
      = k0_pay5 x0 x3 xs0 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 xs0 xs1)]
  unfold kernelRun0_B
  dsimp only
  sl_unfold_words
  rw [View.canon_unit_zero zero3]
  simp only [View.readAt_eq_ld, harg2.read_unread, harg5.read_unread, harg10.read_unread,
    View.ld_unit_zero (S := S1x256x1024) zero3, View.ld_unit_zero (S := S64x1024) zero2,
    View.ld_unit_zero (S := S2048x64) zero2]

/-- The attention block at a later tile: over both scratch arrays as the tile before left them. -/
theorem later_att (hc0 : ¬cond0_0 i) :
    out0_B_6 c i arg2 harg2 arg3 harg3 arg4 harg4 arg5 harg5 arg6 harg6 arg7 harg7 arg8 harg8 arg9 harg9 arg10 harg10 arg11 harg11 hc0 x0 x1 x2 x3 x4 x5 xs0 xs1
      = k0_pay1 (k0_pay6 x0 x3 xs0 xs1) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 x4 x5 xs0 xs1)]
  unfold kernelRun0_B
  dsimp only
  sl_unfold_words
  rw [View.canon_unit_zero zero3]
  simp only [View.readAt_eq_ld, harg2.read_unread, harg5.read_unread, harg10.read_unread, harg11.read_unread,
    View.ld_unit_zero (S := S1x256x1024) zero3, View.ld_unit_zero (S := S64x1024) zero2,
    View.ld_unit_zero (S := S2048x64) zero2]

end Cert.KernelIdeal.Pieces

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibMatrixReduce.lean ====
/-
  Reductions along one axis of a matrix of extended reals, read at an index given by coordinates.

  For an `[a, b]` array `src`:
    • the maximum along the second axis, taken from the value of a start word, is at `i` the running maximum, from
      that value, of the entries `(i, j)` over all `j`;
    • the maximum along the first axis is at `j` the running maximum of the entries `(i, j)` over all `i`;
    • the sum along the first axis, from the zero word, is at `j` the sum over `i` of the entries `(i, j)`.
  A running maximum over a finite index set does not depend on the order in which the entries are met, so it is
  written as a fold of `max` over the whole index set. (The sum along the second axis is the companion file's.)
-/
import Idealize.ShloMosaic.Lib.ValueIdx
import Idealize.ShloMosaic.PureOps.Ideal.Laws

namespace Cert.MatrixReduce

open Idealize.ShloMosaic Idealize.ShloMosaic.ValueIdx

/-- The maximum along the second axis of an `[a, b]` array, from the start word `acc`, reads at `i` the fold of `max`
    from that word's value over the entries `(i, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun j => src (ix2 i j)) := by
  refine (Ideal.multiReduction_maximumf_single src acc h hφ hacc (ix1 i)).trans ?_
  show (Finset.univ : Finset (Fin b)).fold max (Ideal.ofBits .f32 acc) (src ∘ h.lift (ix1 i)) = _
  refine congrArg (fun f => (Finset.univ : Finset (Fin b)).fold max (Ideal.ofBits .f32 acc) f) (funext fun j => ?_)
  refine congrArg src (funext fun c => Fin.ext ?_)
  match c with
  | ⟨0, _⟩ => rfl
  | ⟨1, _⟩ => rfl

/-- The maximum along the first axis of an `[a, b]` array, from the start word `acc`, reads at `j` the fold of `max`
    from that word's value over the entries `(i, j)`. -/
theorem colMax_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (Ideal.ofBits .f32 acc) (fun i => src (ix2 i j)) := by
  refine (Ideal.multiReduction_maximumf_single src acc h hφ hacc (ix1 j)).trans ?_
  show (Finset.univ : Finset (Fin a)).fold max (Ideal.ofBits .f32 acc) (src ∘ h.lift (ix1 j)) = _
  refine congrArg (fun f => (Finset.univ : Finset (Fin a)).fold max (Ideal.ofBits .f32 acc) f) (funext fun i => ?_)
  refine congrArg src (funext fun c => Fin.ext ?_)
  match c with
  | ⟨0, _⟩ => rfl
  | ⟨1, _⟩ => rfl

/-- The sum along the first axis of an `[a, b]` array of extended reals, from the zero accumulator, reads at `j` the
    sum over `i` of the entries `(i, j)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = ∑ i : Fin a, src (ix2 i j)
  refine Finset.sum_congr rfl fun i _ => congrArg src (funext fun c => Fin.ext ?_)
  match c with
  | ⟨0, _⟩ => rfl
  | ⟨1, _⟩ => rfl

end Cert.MatrixReduce
-- ==== Proof.LibRowSoftmax.lean ====
/-
  The softmax along the rows of a matrix of extended reals, read at coordinates.

  A kernel takes the softmax of each row of an `[a, b]` matrix `S` in seven vector steps: the row maxima (a reduction
  along the second axis from a start word), kept as a column `[a, 1]` and spread back to `[a, b]`; the difference and
  its exponential `W = exp (S - max)`; the row sums of `W` from zero, kept as a column and spread back; the quotient.
  At the entry `(r, j)` this is
      exp (S (r, j) - m) / Σ_j' exp (S (r, j') - m),    m = the fold of `max` from the start word's value over row `r`.
  The row may be given as a function `T` of the column coordinate (`hS`): a caller that knows each entry of row `r`
  in closed form gets the softmax of that closed form.
-/
import proofs.«133351_j85907935854651_2_alg».proof.Proof.LibColumnLayout
import proofs.«133351_j85907935854651_2_alg».proof.Proof.LibMatrixReduce

namespace Cert.RowSoftmax

open Idealize.ShloMosaic Idealize.ShloMosaic.ValueIdx

/-- The row softmax of `S`, step by step as a kernel computes it, at `(r, j)`. -/
theorem rowSoftmax_apply {a b : ℕ} (S : FVec Ideal ⟨2, ![a, b]⟩ .f32) (acc : BitVec 32)
    (hred : (⟨2, ![a, b]⟩ : Shape).Reduces [1] ⟨1, ![a]⟩) (hφ : FKind.Formats .f32)
    (hmax : acc = FKind.maximumf.neutral .f32 hφ) (hadd : (0x00000000#32 : BitVec 32) = FKind.add.neutral .f32 hφ)
    (hcol : (⟨1, ![a]⟩ : Shape).ShapeCasts ⟨2, ![a, 1]⟩) (hspread : (⟨2, ![a, 1]⟩ : Shape).Broadcasts ⟨2, ![a, b]⟩)
    (r : Fin a) (T : Fin b → EReal) (hS : ∀ j, S (ix2 r j) = T j) (j : Fin b) :
    divf
        (exp (subf S (broadcastTo ⟨2, ![a, b]⟩ (shapeCast ⟨2, ![a, 1]⟩
          (multiReduction .maximumf [1] ⟨1, ![a]⟩ S acc hred hφ hmax) hcol) hspread)))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩
              (multiReduction .maximumf [1] ⟨1, ![a]⟩ S acc hred hφ hmax) hcol) hspread)))
            0x00000000#32 hred hφ hadd) hcol) hspread)
        (ix2 r j)
      = Ideal.div
          (Ideal.exp (T j - (Finset.univ : Finset (Fin b)).fold max (Ideal.ofBits .f32 acc) T))
          (∑ j' : Fin b, Ideal.exp (T j' - (Finset.univ : Finset (Fin b)).fold max (Ideal.ofBits .f32 acc) T)) := by
  -- the spread-back row maximum, at any column of row `r`
  have hm : ∀ j' : Fin b,
      broadcastTo ⟨2, ![a, b]⟩ (shapeCast ⟨2, ![a, 1]⟩
          (multiReduction .maximumf [1] ⟨1, ![a]⟩ S acc hred hφ hmax) hcol) hspread (ix2 r j')
        = (Finset.univ : Finset (Fin b)).fold max (Ideal.ofBits .f32 acc) T := fun j' => by
    rw [Cert.ColumnLayout.broadcastTo_a1_ab_apply, Cert.ColumnLayout.shapeCast_a_a1_apply,
      Cert.MatrixReduce.rowMax_apply]
    exact congrArg (fun f => (Finset.univ : Finset (Fin b)).fold max (Ideal.ofBits .f32 acc) f) (funext hS)
  -- the weight, at any column of row `r`
  have hw : ∀ j' : Fin b,
      exp (subf S (broadcastTo ⟨2, ![a, b]⟩ (shapeCast ⟨2, ![a, 1]⟩
          (multiReduction .maximumf [1] ⟨1, ![a]⟩ S acc hred hφ hmax) hcol) hspread)) (ix2 r j')
        = Ideal.exp (T j' - (Finset.univ : Finset (Fin b)).fold max (Ideal.ofBits .f32 acc) T) := fun j' => by
    show Ideal.exp (S (ix2 r j') - _) = _
    rw [hm j', hS j']
  show Ideal.div _ _ = _
  rw [hw j, Cert.ColumnLayout.broadcastTo_a1_ab_apply, Cert.ColumnLayout.shapeCast_a_a1_apply,
    Cert.ColumnLayout.rowSum_apply]
  exact congrArg (Ideal.div _) (Finset.sum_congr rfl fun j' _ => hw j')

end Cert.RowSoftmax
-- ==== Proof.AttentionSpec.lean ====
/-
  Single-head attention with 64-wide linear projections, over inputs `q k v : [8, 2048, 1024]` and weights
  `wq wk wv : [64, 1024]`, as ONE function of the six argument arrays, entry by entry, on the extended reals:

    proj x w (b, s, e)      = Σ_d x[b, s, d] · w[e, d]
    score (b, i, j)         = (Σ_e proj q wq (b, i, e) · proj k wk (b, j, e)) · 2⁻⁶
    rowMax (b, i)           = the maximum over j of score (b, i, j), folded from -∞
    weight (b, i, j)        = exp (score (b, i, j) - rowMax (b, i))
    probs (b, i, j)         = weight (b, i, j) / Σ_j' weight (b, i, j')
    att (b, i, e)           = Σ_j probs (b, i, j) · proj v wv (b, j, e)

  The constants stay the f32 words the programs spell (`2⁻⁶` is `0x3C800000`, `-∞` is `0xFF800000`); only the
  two laws that join a program dividing by `64` and taking one more maximum with `-∞` to this form evaluate them.
-/
import Idealize.ShloMosaic.PureOps.Ideal
import Idealize.ShloMosaic.Lib.ValueIdx
import Mathlib.Data.Finset.Fold

noncomputable section

namespace Cert.AttentionSpec

open Idealize.ShloMosaic Idealize.ShloMosaic.ValueIdx

/-- An activation array `[8, 2048, 1024]` and a weight array `[64, 1024]`, entries extended reals. -/
abbrev Act : Type := (⟨3, ![8, 2048, 1024]⟩ : Shape).Idx → EReal
abbrev Wt : Type := (⟨2, ![64, 1024]⟩ : Shape).Idx → EReal

/-- The linear projection: row `(b, s)` of `x` against row `e` of `w`. -/
def proj (x : Act) (w : Wt) (b : Fin 8) (s : Fin 2048) (e : Fin 64) : EReal :=
  ∑ d : Fin 1024, x (ix3 b s d) * w (ix2 e d)

/-- The scaled score of query row `i` against key row `j` of batch `b`: the inner product of the two projected
    rows, times `2⁻⁶`. -/
def score (q k : Act) (wq wk : Wt) (b : Fin 8) (i j : Fin 2048) : EReal :=
  (∑ e : Fin 64, proj q wq b i e * proj k wk b j e) * Ideal.ofBits .f32 0x3C800000#32

/-- The largest score of query row `i`, folded from `-∞`. -/
def rowMax (q k : Act) (wq wk : Wt) (b : Fin 8) (i : Fin 2048) : EReal :=
  (Finset.univ : Finset (Fin 2048)).fold max (Ideal.ofBits .f32 0xFF800000#32) (fun j => score q k wq wk b i j)

/-- The unnormalized softmax weight. -/
def weight (q k : Act) (wq wk : Wt) (b : Fin 8) (i j : Fin 2048) : EReal :=
  Ideal.exp (score q k wq wk b i j - rowMax q k wq wk b i)

/-- The softmax probability: the weight over the row's total weight. -/
def probs (q k : Act) (wq wk : Wt) (b : Fin 8) (i j : Fin 2048) : EReal :=
  Ideal.div (weight q k wq wk b i j) (∑ j' : Fin 2048, weight q k wq wk b i j')

/-- The attention output: the probabilities of row `i` against column `e` of the projected values. -/
def att (q k v : Act) (wq wk wv : Wt) (b : Fin 8) (i : Fin 2048) (e : Fin 64) : EReal :=
  ∑ j : Fin 2048, probs q k wq wk b i j * proj v wv b j e

/-- The two result arrays, `[8, 2048, 2048]` and `[8, 2048, 64]`. -/
def probsArr (q k : Act) (wq wk : Wt) : (⟨3, ![8, 2048, 2048]⟩ : Shape).Idx → EReal :=
  fun y => probs q k wq wk (y 0) (y 1) (y 2)
def attArr (q k v : Act) (wq wk wv : Wt) : (⟨3, ![8, 2048, 64]⟩ : Shape).Idx → EReal :=
  fun y => att q k v wq wk wv (y 0) (y 1) (y 2)

/-! ## The two laws between a program's spelling and this one -/

/-- The word `0x42800000` denotes `64` and `0x3C800000` denotes `1/64`. -/
theorem ofBits_sixtyfour : Ideal.ofBits .f32 0x42800000#32 = ((64 : ℝ) : EReal) := by
  simp [Ideal.ofBits, Ideal.ieee, -EReal.coe_mul]; norm_num
theorem ofBits_inv_sixtyfour : Ideal.ofBits .f32 0x3C800000#32 = ((1 / 64 : ℝ) : EReal) := by
  simp [Ideal.ofBits, Ideal.ieee, -EReal.coe_mul]; norm_num

/-- Dividing by `64` is multiplying by `2⁻⁶`, at every extended real, the infinities included. -/
theorem div_sixtyfour (x : EReal) :
    Ideal.div x (Ideal.ofBits .f32 0x42800000#32) = x * Ideal.ofBits .f32 0x3C800000#32 := by
  rw [ofBits_sixtyfour, ofBits_inv_sixtyfour, Ideal.div_coe (by norm_num : (64 : ℝ) ≠ 0)]

/-- A maximum folded from `b` is at least `b`, so one more maximum with `b` changes nothing. -/
theorem max_fold_start {n : Nat} (b : EReal) (f : Fin n → EReal) :
    max b ((Finset.univ : Finset (Fin n)).fold max b f) = (Finset.univ : Finset (Fin n)).fold max b f :=
  max_eq_right ((Finset.le_fold_max b).mpr (Or.inl le_rfl))

end Cert.AttentionSpec

end
-- ==== Proof.AttentionTile.lean ====
/-
  One tile of query rows against the whole projected keys and values.

  The kernel works on 256 query rows of one batch at a time, with the batch's projected keys and values `[2048, 64]`
  at hand. For a block `x : [1, R, 1024]` of rows, weights `w : [64, 1024]` and projected arrays `kp vp : [2048, 64]`:
      rowsProj x w (s, e)        = Σ_d x (0, s, d) · w (e, d)
      tileScore x w kp (r, j)    = (Σ_e rowsProj x w (r, e) · kp (j, e)) · 2⁻⁶
      tileProbs x w kp (r, j)    = the softmax of row `r` of tileScore, at `j`
      tileAtt x w kp vp (r, e)   = Σ_j tileProbs x w kp (r, j) · vp (j, e)
  When the block is rows `row s` of batch `b` of an activation array and `kp`, `vp` are that batch's projections,
  these are the specification's `proj`, `score`, `probs` and `att` at `(b, row r, ·)`: sums and folds of equal terms.
-/
import proofs.«133351_j85907935854651_2_alg».proof.Proof.AttentionSpec

noncomputable section

namespace Cert.AttentionTile

open Idealize.ShloMosaic Idealize.ShloMosaic.ValueIdx Cert.AttentionSpec

/-- A block of `R` rows of one batch of an activation array, and a projected array. -/
abbrev Rows (R : ℕ) : Type := (⟨3, ![1, R, 1024]⟩ : Shape).Idx → EReal
abbrev Projected : Type := (⟨2, ![2048, 64]⟩ : Shape).Idx → EReal

/-- The projection of row `s` of the block against row `e` of the weights. -/
def rowsProj {R : ℕ} (x : Rows R) (w : Wt) (s : Fin R) (e : Fin 64) : EReal :=
  ∑ d : Fin 1024, x (ix3 (0 : Fin 1) s d) * w (ix2 e d)

/-- The scaled score of the tile's query row `r` against key row `j`. -/
def tileScore (x : Rows 256) (w : Wt) (kp : Projected) (r : Fin 256) (j : Fin 2048) : EReal :=
  (∑ e : Fin 64, rowsProj x w r e * kp (ix2 j e)) * Ideal.ofBits .f32 0x3C800000#32

/-- The softmax of the tile's score row `r`, at `j`. -/
def tileProbs (x : Rows 256) (w : Wt) (kp : Projected) (r : Fin 256) (j : Fin 2048) : EReal :=
  Ideal.div
    (Ideal.exp (tileScore x w kp r j
      - (Finset.univ : Finset (Fin 2048)).fold max (Ideal.ofBits .f32 0xFF800000#32) (tileScore x w kp r)))
    (∑ j' : Fin 2048, Ideal.exp (tileScore x w kp r j'
      - (Finset.univ : Finset (Fin 2048)).fold max (Ideal.ofBits .f32 0xFF800000#32) (tileScore x w kp r)))

/-- The tile's attention row `r`, at column `e`. -/
def tileAtt (x : Rows 256) (w : Wt) (kp vp : Projected) (r : Fin 256) (e : Fin 64) : EReal :=
  ∑ j : Fin 2048, tileProbs x w kp r j * vp (ix2 j e)

/-! ## The tile of an activation array -/

/-- Rows `row s` of batch `b`: the block's projection is the array's. -/
theorem rowsProj_eq {R : ℕ} (x : Rows R) (a : Act) (w : Wt) (b : Fin 8) (row : Fin R → Fin 2048)
    (hx : ∀ s d, x (ix3 (0 : Fin 1) s d) = a (ix3 b (row s) d)) (s : Fin R) (e : Fin 64) :
    rowsProj x w s e = proj a w b (row s) e := by
  unfold rowsProj proj
  exact Finset.sum_congr rfl fun d _ => by rw [hx]

variable (x : Rows 256) (q k : Act) (wq wk : Wt) (kp : Projected) (b : Fin 8) (row : Fin 256 → Fin 2048)
  (hx : ∀ s d, x (ix3 (0 : Fin 1) s d) = q (ix3 b (row s) d)) (hk : ∀ j e, kp (ix2 j e) = proj k wk b j e)

include hx hk in
/-- With the batch's projected keys at hand, the tile's score is the specification's. -/
theorem tileScore_eq (r : Fin 256) (j : Fin 2048) : tileScore x wq kp r j = score q k wq wk b (row r) j := by
  unfold tileScore score
  refine congrArg (· * Ideal.ofBits .f32 0x3C800000#32) (Finset.sum_congr rfl fun e _ => ?_)
  rw [rowsProj_eq x q wq b row hx, hk]

include hx hk in
/-- … and so is its softmax row. -/
theorem tileProbs_eq (r : Fin 256) (j : Fin 2048) : tileProbs x wq kp r j = probs q k wq wk b (row r) j := by
  have hs : tileScore x wq kp r = fun j' => score q k wq wk b (row r) j' :=
    funext fun j' => tileScore_eq x q k wq wk kp b row hx hk r j'
  unfold tileProbs
  rw [hs]
  rfl

include hx hk in
/-- With the batch's projected values too, the tile's attention row is the specification's. -/
theorem tileAtt_eq (v : Act) (wv : Wt) (vp : Projected) (hv : ∀ j e, vp (ix2 j e) = proj v wv b j e)
    (r : Fin 256) (e : Fin 64) : tileAtt x wq kp vp r e = att q k v wq wk wv b (row r) e := by
  unfold tileAtt att
  exact Finset.sum_congr rfl fun j _ => by rw [tileProbs_eq x q k wq wk kp b row hx hk r j, hv]

end Cert.AttentionTile

end
-- ==== Proof.KernelPayloads.lean ====
/-
  The kernel body's arithmetic, read entry by entry on the extended reals.

  Rounding an operand to bf16 on the way into a matrix product changes nothing here, a transpose swaps the two
  coordinates, a cast between `[1, a, b]` and `[a, b]` drops or adds the unit coordinate, and a matrix product into the zero
  matrix is the plain sum of products. So, for a key or value block `x`, a query tile `x0`, weights `w` and
  scratch arrays `kp vp`:
      the projection stored to scratch    at (s, e) is  rowsProj x w (s, e) = Σ_d x (0, s, d) · w (e, d)
      the probabilities                   at (r, j) is  tileProbs x0 w kp (r, j)   (the row softmax of the scaled scores)
      the attention block                 at (r, e) is  tileAtt x0 w kp vp (r, e) = Σ_j probabilities (r, j) · vp (j, e)
  and the two stored blocks are these with a leading unit coordinate.
-/
import proofs.«133351_j85907935854651_2_alg».proof.Proof.Gen.KernelIdeal.Skeleton
import proofs.«133351_j85907935854651_2_alg».proof.Proof.LibPlainMatmul
import proofs.«133351_j85907935854651_2_alg».proof.Proof.LibRowSoftmax
import proofs.«133351_j85907935854651_2_alg».proof.Proof.AttentionTile
import Idealize.ShloMosaic.Lib.ValueLayout

noncomputable section

namespace Cert.KernelIdeal.Payloads

open Cert.KernelIdeal Cert.KernelIdeal.Gen Idealize.ShloMosaic Idealize.ShloMosaic.ValueIdx Cert.AttentionTile

/-- Rounding an f32 vector to bf16 changes no entry at the ideal values. -/
theorem round_bf16 {s : Shape} (a : FVec Ideal s .f32) (h : FTy.bf16.bits < FTy.f32.bits) (i : s.Idx) :
    (truncf .bf16 a h : FVec Ideal s .bf16) i = a i := rfl

/-- The key projection stored to scratch 0: a `[2048, 1024]` block against the transposed weights. -/
theorem keys_apply (x1 : Vec Ideal S1x2048x1024 .f32) (x4 : Vec Ideal S64x1024 .f32) (s : Fin 2048) (e : Fin 64) :
    k0_pay2 (F := Ideal) x1 x4 (ix2 s e) = rowsProj x1 x4 s e := by
  unfold k0_pay2 rowsProj
  dsimp only
  refine (congrFun (shapeCast_self _ _) _).trans ?_
  refine (Cert.PlainMatmul.plain_apply (M := 2048) (K := 1024) (N := 64) _ _ s e).trans ?_
  exact Finset.sum_congr rfl fun d _ => congrArg₂ (· * ·)
    ((round_bf16 _ _ _).trans (shapeCast_1ab_ab_apply x1 _ s d))
    ((transpose_ix2_apply _ _ d e).trans (round_bf16 _ _ _))

/-- The value projection stored to scratch 1: the same arithmetic on the value block and weights. -/
theorem values_apply (x2 : Vec Ideal S1x2048x1024 .f32) (x5 : Vec Ideal S64x1024 .f32) (s : Fin 2048) (e : Fin 64) :
    k0_pay3 (F := Ideal) x2 x5 (ix2 s e) = rowsProj x2 x5 s e := by
  unfold k0_pay3 rowsProj
  dsimp only
  refine (congrFun (shapeCast_self _ _) _).trans ?_
  refine (Cert.PlainMatmul.plain_apply (M := 2048) (K := 1024) (N := 64) _ _ s e).trans ?_
  exact Finset.sum_congr rfl fun d _ => congrArg₂ (· * ·)
    ((round_bf16 _ _ _).trans (shapeCast_1ab_ab_apply x2 _ s d))
    ((transpose_ix2_apply _ _ d e).trans (round_bf16 _ _ _))

/-- The probabilities: the query tile projected, scored against scratch 0 (transposed), scaled by `2⁻⁶`, and the row
    softmax of that. -/
theorem probs_apply (x0 : Vec Ideal S1x256x1024 .f32) (x3 : Vec Ideal S64x1024 .f32) (xs0 : Vec Ideal S2048x64 .f32)
    (r : Fin 256) (j : Fin 2048) : k0_pay4 (F := Ideal) x0 x3 xs0 (ix2 r j) = tileProbs x0 x3 xs0 r j := by
  unfold k0_pay4 tileProbs
  dsimp only
  refine Cert.RowSoftmax.rowSoftmax_apply _ _ _ _ _ _ _ _ r (tileScore x0 x3 xs0 r) (fun j' => ?_) j
  unfold tileScore
  refine (mulf_apply _ _ _).trans ?_
  refine congrArg₂ (· * ·) ?_ rfl
  refine (Cert.PlainMatmul.plain_apply (M := 256) (K := 64) (N := 2048) _ _ r j').trans ?_
  refine Finset.sum_congr rfl fun e _ => congrArg₂ (· * ·) ?_
    ((transpose_ix2_apply _ _ e j').trans (round_bf16 _ _ _))
  refine (round_bf16 _ _ _).trans ?_
  refine (Cert.PlainMatmul.plain_apply (M := 256) (K := 1024) (N := 64) _ _ r e).trans ?_
  unfold rowsProj
  exact Finset.sum_congr rfl fun d _ => congrArg₂ (· * ·)
    ((round_bf16 _ _ _).trans (shapeCast_1ab_ab_apply x0 _ r d))
    ((transpose_ix2_apply _ _ d e).trans (round_bf16 _ _ _))

/-- The attention block: the probabilities against scratch 1. -/
theorem att_apply (x0 : Vec Ideal S1x256x1024 .f32) (x3 : Vec Ideal S64x1024 .f32) (xs0 xs1 : Vec Ideal S2048x64 .f32)
    (r : Fin 256) (e : Fin 64) : k0_pay6 (F := Ideal) x0 x3 xs0 xs1 (ix2 r e) = tileAtt x0 x3 xs0 xs1 r e := by
  unfold k0_pay6 tileAtt
  refine (Cert.PlainMatmul.plain_apply (M := 256) (K := 2048) (N := 64) _ _ r e).trans ?_
  exact Finset.sum_congr rfl fun j _ => congrArg₂ (· * ·)
    ((round_bf16 _ _ _).trans (probs_apply x0 x3 xs0 r j)) (round_bf16 _ _ _)

/-- The stored probabilities block `[1, 256, 2048]` is the probabilities with a leading unit coordinate. -/
theorem probs_block_apply (x0 : Vec Ideal S1x256x1024 .f32) (x3 : Vec Ideal S64x1024 .f32) (xs0 : Vec Ideal S2048x64 .f32)
    (u : Fin 1) (r : Fin 256) (j : Fin 2048) :
    k0_pay5 (F := Ideal) x0 x3 xs0 (ix3 u r j) = tileProbs x0 x3 xs0 r j := by
  unfold k0_pay5
  exact (shapeCast_ab_1ab_apply _ _ u r j).trans (probs_apply x0 x3 xs0 r j)

/-- The stored attention block `[1, 256, 64]` is the attention block with a leading unit coordinate. -/
theorem att_block_apply (v : FVec Ideal S256x64 .f32) (u : Fin 1) (r : Fin 256) (e : Fin 64) :
    k0_pay1 (F := Ideal) v (ix3 u r e) = v (ix2 r e) := by
  unfold k0_pay1
  exact shapeCast_ab_1ab_apply _ _ u r e

end Cert.KernelIdeal.Payloads

end
-- ==== Proof.KernelPoints.lean ====
/-
  What the kernel's two output blocks hold after each grid point, as entries of the specification.

  The grid has 64 points; point `n` works on batch `n / 8` and on the query rows `(n % 8) · 256 … + 255`. Its input
  blocks are read off the argument arrays: the query tile is those rows of `q`, the key and value blocks are the
  whole batch `n / 8` of `k` and `v`, and the three weight blocks are the whole weight arrays.
  The two scratch arrays are written at the first point of a batch (`n % 8 = 0`) and kept by the seven points after it,
  so by induction over the points they hold, after every point `n`, the projected keys and values of batch `n / 8`.
  Hence the probabilities block at point `n` is `probs (n / 8, (n % 8) · 256 + r, j)` and the attention block is
  `att (n / 8, (n % 8) · 256 + r, e)`, each with a leading unit coordinate.
-/
import proofs.«133351_j85907935854651_2_alg».proof.Proof.Gen.KernelIdeal.Value
import proofs.«133351_j85907935854651_2_alg».proof.Proof.KernelPieces
import proofs.«133351_j85907935854651_2_alg».proof.Proof.KernelPayloads

set_option maxRecDepth 16384

noncomputable section

namespace Cert.KernelIdeal.Points

open Cert.KernelIdeal Cert.KernelIdeal.Gen Idealize.ShloMosaic Idealize.ShloMosaic.TcCoe Idealize.ShloMosaic.ValueIdx
open Idealize.SL.Sem Cert.AttentionSpec Cert.AttentionTile

variable (m : (ℓ : Loc nD τ sig) → Buf (Elt Ideal) ℓ)

/-- Core `c`'s six argument arrays. -/
abbrev argQ (c : Dev nD) : Act := m ((c : Thread nD τ).loc main_arg0)
abbrev argK (c : Dev nD) : Act := m ((c : Thread nD τ).loc main_arg1)
abbrev argV (c : Dev nD) : Act := m ((c : Thread nD τ).loc main_arg2)
abbrev argWq (c : Dev nD) : Wt := m ((c : Thread nD τ).loc main_arg3)
abbrev argWk (c : Dev nD) : Wt := m ((c : Thread nD τ).loc main_arg4)
abbrev argWv (c : Dev nD) : Wt := m ((c : Thread nD τ).loc main_arg5)

/-! ## The grid: a point's batch and query rows -/

theorem points : cfg0.N = 64 := N_0

/-- Point `n` works on batch `n / 8` … -/
def batchOf (n : ℕ) (hn : n < cfg0.N) : Fin 8 := ⟨n / 8, by have := points; omega⟩

/-- … and its tile's row `r` is row `(n % 8) · 256 + r` of the batch. -/
def rowOf (n : ℕ) (r : Fin 256) : Fin 2048 :=
  ⟨n % 8 * 256 + r.val, by have := r.isLt; have := Nat.mod_lt n (show 0 < 8 by decide); omega⟩

/-- The block indices of the eight windows at every point, decided over the grid. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val / 8 ∧ win0_6.index t (1 : Fin 3) = t.val % 8 ∧ win0_6.index t (2 : Fin 3) = 0)
    ∧ (win0_7.index t (0 : Fin 3) = t.val / 8 ∧ win0_7.index t (1 : Fin 3) = t.val % 8 ∧ win0_7.index t (2 : Fin 3) = 0) :=
  (by decide +kernel : ∀ t : Fin grid0.N, _)

/-! ## The input blocks, read off the argument arrays -/

/-- The query tile at point `t`: rows `rowOf t r` of batch `batchOf t` of `q`. -/
theorem qTile_apply (c : Dev nD) (t : Fin cfg0.N) (r : Fin 256) (d : Fin 1024) :
    (iblk m c 0 t : Vec Ideal S1x256x1024 .f32) (ix3 (0 : Fin 1) r d)
      = argQ m c (ix3 (batchOf t.val t.isLt) (rowOf t.val r) d) := by
  obtain ⟨⟨e0, e1, e2⟩, -⟩ := idx_facts t
  unfold iblk
  rw [View.read_apply]
  show m ((c : Thread nD τ).loc main_arg0) _ = m ((c : Thread nD τ).loc main_arg0) _
  refine congrArg _ (funext fun a => Fin.ext ?_)
  match a with
  | ⟨0, _⟩ => show win0_0.index t (0 : Fin 3) * 1 + 1 * 0 = t.val / 8; rw [e0]; omega
  | ⟨1, _⟩ => show win0_0.index t (1 : Fin 3) * 256 + 1 * r.val = t.val % 8 * 256 + r.val; rw [e1]; omega
  | ⟨2, _⟩ => show win0_0.index t (2 : Fin 3) * 1024 + 1 * d.val = d.val; rw [e2]; omega

/-- The key block at point `t`: the whole batch `batchOf t` of `k`. -/
theorem kBlock_apply (c : Dev nD) (t : Fin cfg0.N) (s : Fin 2048) (d : Fin 1024) :
    (iblk m c 1 t : Vec Ideal S1x2048x1024 .f32) (ix3 (0 : Fin 1) s d)
      = argK m c (ix3 (batchOf t.val t.isLt) s d) := by
  obtain ⟨-, ⟨e0, e1, e2⟩, -⟩ := idx_facts t
  unfold iblk
  rw [View.read_apply]
  show m ((c : Thread nD τ).loc main_arg1) _ = m ((c : Thread nD τ).loc main_arg1) _
  refine congrArg _ (funext fun a => Fin.ext ?_)
  match a with
  | ⟨0, _⟩ => show win0_1.index t (0 : Fin 3) * 1 + 1 * 0 = t.val / 8; rw [e0]; omega
  | ⟨1, _⟩ => show win0_1.index t (1 : Fin 3) * 2048 + 1 * s.val = s.val; rw [e1]; omega
  | ⟨2, _⟩ => show win0_1.index t (2 : Fin 3) * 1024 + 1 * d.val = d.val; rw [e2]; omega

/-- The value block at point `t`: the whole batch `batchOf t` of `v`. -/
theorem vBlock_apply (c : Dev nD) (t : Fin cfg0.N) (s : Fin 2048) (d : Fin 1024) :
    (iblk m c 2 t : Vec Ideal S1x2048x1024 .f32) (ix3 (0 : Fin 1) s d)
      = argV m c (ix3 (batchOf t.val t.isLt) s d) := by
  obtain ⟨-, -, ⟨e0, e1, e2⟩, -⟩ := idx_facts t
  unfold iblk
  rw [View.read_apply]
  show m ((c : Thread nD τ).loc main_arg2) _ = m ((c : Thread nD τ).loc main_arg2) _
  refine congrArg _ (funext fun a => Fin.ext ?_)
  match a with
  | ⟨0, _⟩ => show win0_2.index t (0 : Fin 3) * 1 + 1 * 0 = t.val / 8; rw [e0]; omega
  | ⟨1, _⟩ => show win0_2.index t (1 : Fin 3) * 2048 + 1 * s.val = s.val; rw [e1]; omega
  | ⟨2, _⟩ => show win0_2.index t (2 : Fin 3) * 1024 + 1 * d.val = d.val; rw [e2]; omega

/-- The three weight blocks are the whole weight arrays, at every point. -/
theorem wq_block (c : Dev nD) (t : Fin cfg0.N) : (iblk m c 3 t : Vec Ideal S64x1024 .f32) = argWq m c := by
  obtain ⟨-, -, -, ⟨e0, e1⟩, -⟩ := idx_facts t
  funext y
  unfold iblk
  rw [View.read_apply]
  show m ((c : Thread nD τ).loc main_arg3) _ = m ((c : Thread nD τ).loc main_arg3) y
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 1024 + 1 * (y 1).val = (y 1).val; rw [e1]; omega

theorem wk_block (c : Dev nD) (t : Fin cfg0.N) : (iblk m c 4 t : Vec Ideal S64x1024 .f32) = argWk m c := by
  obtain ⟨-, -, -, -, ⟨e0, e1⟩, -⟩ := idx_facts t
  funext y
  unfold iblk
  rw [View.read_apply]
  show m ((c : Thread nD τ).loc main_arg4) _ = m ((c : Thread nD τ).loc main_arg4) y
  refine congrArg _ (funext fun a => Fin.ext ?_)
  match a with
  | ⟨0, _⟩ => show win0_4.index t (0 : Fin 2) * 64 + 1 * (y 0).val = (y 0).val; rw [e0]; omega
  | ⟨1, _⟩ => show win0_4.index t (1 : Fin 2) * 1024 + 1 * (y 1).val = (y 1).val; rw [e1]; omega

theorem wv_block (c : Dev nD) (t : Fin cfg0.N) : (iblk m c 5 t : Vec Ideal S64x1024 .f32) = argWv m c := by
  obtain ⟨-, -, -, -, -, ⟨e0, e1⟩, -⟩ := idx_facts t
  funext y
  unfold iblk
  rw [View.read_apply]
  show m ((c : Thread nD τ).loc main_arg5) _ = m ((c : Thread nD τ).loc main_arg5) y
  refine congrArg _ (funext fun a => Fin.ext ?_)
  match a with
  | ⟨0, _⟩ => show win0_5.index t (0 : Fin 2) * 64 + 1 * (y 0).val = (y 0).val; rw [e0]; omega
  | ⟨1, _⟩ => show win0_5.index t (1 : Fin 2) * 1024 + 1 * (y 1).val = (y 1).val; rw [e1]; omega

/-! ## The found pieces at a point -/

/-- At the first point of a batch the scratch arrays, the probabilities block and the attention block are the
    body's arithmetic of the point's input blocks. -/
theorem keys_first (c : Dev nD) (t : Fin cfg0.N) (h0 : t.val % 8 = 0) :
    (outsAt0 m c t.val t.isLt).2.2.1 = k0_pay2 (iblk m c 1 t) (iblk m c 4 t) := by
  rw [outsAt0_A m c t h0]
  dsimp only
  exact (Pieces.first_keys (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole cc0_scratch0)
      scM0_1 (Memref.isWhole_whole cc0_scratch1) (iblk m c 0 t) (iblk m c 1 t) (iblk m c 2 t) (iblk m c 3 t) (iblk m c 4 t) (iblk m c 5 t)
      ((hcond0_0 t).mpr h0))

theorem values_first (c : Dev nD) (t : Fin cfg0.N) (h0 : t.val % 8 = 0) :
    (outsAt0 m c t.val t.isLt).2.2.2 = k0_pay3 (iblk m c 2 t) (iblk m c 5 t) := by
  rw [outsAt0_A m c t h0]
  dsimp only
  exact (Pieces.first_values (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole cc0_scratch0)
      scM0_1 (Memref.isWhole_whole cc0_scratch1) (iblk m c 0 t) (iblk m c 1 t) (iblk m c 2 t) (iblk m c 3 t) (iblk m c 4 t) (iblk m c 5 t)
      ((hcond0_0 t).mpr h0))

theorem probs_first (c : Dev nD) (t : Fin cfg0.N) (h0 : t.val % 8 = 0) :
    (outsAt0 m c t.val t.isLt).2.1 = k0_pay5 (iblk m c 0 t) (iblk m c 3 t) (k0_pay2 (iblk m c 1 t) (iblk m c 4 t)) := by
  rw [outsAt0_A m c t h0]
  dsimp only
  exact (Pieces.first_probs (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole cc0_scratch0)
      scM0_1 (Memref.isWhole_whole cc0_scratch1) (iblk m c 0 t) (iblk m c 1 t) (iblk m c 2 t) (iblk m c 3 t) (iblk m c 4 t) (iblk m c 5 t)
      ((hcond0_0 t).mpr h0))

theorem att_first (c : Dev nD) (t : Fin cfg0.N) (h0 : t.val % 8 = 0) :
    (outsAt0 m c t.val t.isLt).1
      = k0_pay1 (k0_pay6 (iblk m c 0 t) (iblk m c 3 t) (k0_pay2 (iblk m c 1 t) (iblk m c 4 t))
          (k0_pay3 (iblk m c 2 t) (iblk m c 5 t))) := by
  rw [outsAt0_A m c t h0]
  dsimp only
  exact (Pieces.first_att (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole cc0_scratch0)
      scM0_1 (Memref.isWhole_whole cc0_scratch1) (iblk m c 0 t) (iblk m c 1 t) (iblk m c 2 t) (iblk m c 3 t) (iblk m c 4 t) (iblk m c 5 t)
      ((hcond0_0 t).mpr h0))

/-- At the other points the scratch arrays are what the point before left, and the two blocks are the body's arithmetic
    over them. -/
theorem keys_later (c : Dev nD) (t : Fin cfg0.N) (h0 : ¬t.val % 8 = 0) :
    (outsAt0 m c t.val t.isLt).2.2.1
      = (outsAt0 m c (t.val - 1) (Nat.lt_of_le_of_lt (Nat.sub_le _ _) t.isLt)).2.2.1 := by
  rw [outsAt0_B m c t h0]
  rfl

theorem values_later (c : Dev nD) (t : Fin cfg0.N) (h0 : ¬t.val % 8 = 0) :
    (outsAt0 m c t.val t.isLt).2.2.2
      = (outsAt0 m c (t.val - 1) (Nat.lt_of_le_of_lt (Nat.sub_le _ _) t.isLt)).2.2.2 := by
  rw [outsAt0_B m c t h0]
  rfl

theorem probs_later (c : Dev nD) (t : Fin cfg0.N) (h0 : ¬t.val % 8 = 0) :
    (outsAt0 m c t.val t.isLt).2.1
      = k0_pay5 (iblk m c 0 t) (iblk m c 3 t)
          (outsAt0 m c (t.val - 1) (Nat.lt_of_le_of_lt (Nat.sub_le _ _) t.isLt)).2.2.1 := by
  rw [outsAt0_B m c t h0]
  dsimp only
  exact (Pieces.later_probs (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole cc0_scratch0)
      scM0_1 (Memref.isWhole_whole cc0_scratch1) (iblk m c 0 t) (iblk m c 1 t) (iblk m c 2 t) (iblk m c 3 t) (iblk m c 4 t) (iblk m c 5 t)
      (outsAt0 m c (t.val - 1) (Nat.lt_of_le_of_lt (Nat.sub_le _ _) t.isLt)).2.2.1
      (outsAt0 m c (t.val - 1) (Nat.lt_of_le_of_lt (Nat.sub_le _ _) t.isLt)).2.2.2
      (fun h => h0 ((hcond0_0 t).mp h)))

theorem att_later (c : Dev nD) (t : Fin cfg0.N) (h0 : ¬t.val % 8 = 0) :
    (outsAt0 m c t.val t.isLt).1
      = k0_pay1 (k0_pay6 (iblk m c 0 t) (iblk m c 3 t)
          (outsAt0 m c (t.val - 1) (Nat.lt_of_le_of_lt (Nat.sub_le _ _) t.isLt)).2.2.1
          (outsAt0 m c (t.val - 1) (Nat.lt_of_le_of_lt (Nat.sub_le _ _) t.isLt)).2.2.2) := by
  rw [outsAt0_B m c t h0]
  dsimp only
  exact (Pieces.later_att (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole cc0_scratch0)
      scM0_1 (Memref.isWhole_whole cc0_scratch1) (iblk m c 0 t) (iblk m c 1 t) (iblk m c 2 t) (iblk m c 3 t) (iblk m c 4 t) (iblk m c 5 t)
      (outsAt0 m c (t.val - 1) (Nat.lt_of_le_of_lt (Nat.sub_le _ _) t.isLt)).2.2.1
      (outsAt0 m c (t.val - 1) (Nat.lt_of_le_of_lt (Nat.sub_le _ _) t.isLt)).2.2.2
      (fun h => h0 ((hcond0_0 t).mp h)))

/-! ## What the scratch arrays hold after each point -/

/-- The projected keys and values of batch `b`. -/
def keysOf (c : Dev nD) (b : Fin 8) : Projected := fun y => proj (argK m c) (argWk m c) b (y 0) (y 1)
def valuesOf (c : Dev nD) (b : Fin 8) : Projected := fun y => proj (argV m c) (argWv m c) b (y 0) (y 1)

/-- The key projection of point `t`'s blocks is the projected keys of its batch. -/
theorem keys_block (c : Dev nD) (t : Fin cfg0.N) :
    k0_pay2 (F := Ideal) (iblk m c 1 t) (iblk m c 4 t) = keysOf m c (batchOf t.val t.isLt) := by
  funext y
  obtain ⟨s, e, rfl⟩ : ∃ (s : Fin 2048) (e : Fin 64), y = ix2 s e := ⟨y 0, y 1, eq_ix2 y⟩
  rw [wk_block m c t]
  refine (Payloads.keys_apply _ _ s e).trans ?_
  exact rowsProj_eq _ (argK m c) (argWk m c) (batchOf t.val t.isLt) (fun s => s)
    (fun s d => kBlock_apply m c t s d) s e

theorem values_block (c : Dev nD) (t : Fin cfg0.N) :
    k0_pay3 (F := Ideal) (iblk m c 2 t) (iblk m c 5 t) = valuesOf m c (batchOf t.val t.isLt) := by
  funext y
  obtain ⟨s, e, rfl⟩ : ∃ (s : Fin 2048) (e : Fin 64), y = ix2 s e := ⟨y 0, y 1, eq_ix2 y⟩
  rw [wv_block m c t]
  refine (Payloads.values_apply _ _ s e).trans ?_
  exact rowsProj_eq _ (argV m c) (argWv m c) (batchOf t.val t.isLt) (fun s => s)
    (fun s d => vBlock_apply m c t s d) s e

/-- After every point the scratch arrays hold the projected keys and values of the point's batch: written at the
    first point of the batch, kept by the others (which are in the same batch as the point before them). -/
theorem scratch_inv (c : Dev nD) : ∀ (n : ℕ) (hn : n < cfg0.N),
    (outsAt0 m c n hn).2.2.1 = keysOf m c (batchOf n hn) ∧ (outsAt0 m c n hn).2.2.2 = valuesOf m c (batchOf n hn) := by
  intro n
  induction n with
  | zero =>
    intro hn
    exact ⟨(keys_first m c ⟨0, hn⟩ rfl).trans (keys_block m c ⟨0, hn⟩),
      (values_first m c ⟨0, hn⟩ rfl).trans (values_block m c ⟨0, hn⟩)⟩
  | succ n ih =>
    intro hn
    by_cases h0 : (n + 1) % 8 = 0
    · exact ⟨(keys_first m c ⟨n + 1, hn⟩ h0).trans (keys_block m c ⟨n + 1, hn⟩),
        (values_first m c ⟨n + 1, hn⟩ h0).trans (values_block m c ⟨n + 1, hn⟩)⟩
    · have hb : batchOf n (Nat.lt_of_succ_lt hn) = batchOf (n + 1) hn :=
        Fin.ext (by show n / 8 = (n + 1) / 8; omega)
      obtain ⟨ihk, ihv⟩ := ih (Nat.lt_of_succ_lt hn)
      refine ⟨(keys_later m c ⟨n + 1, hn⟩ h0).trans ?_, (values_later m c ⟨n + 1, hn⟩ h0).trans ?_⟩
      · rw [← hb]; exact ihk
      · rw [← hb]; exact ihv

/-- So a later point finds in the scratch arrays the projections of its own batch. -/
theorem prev_scratch (c : Dev nD) (t : Fin cfg0.N) (h0 : ¬t.val % 8 = 0) :
    (outsAt0 m c (t.val - 1) (Nat.lt_of_le_of_lt (Nat.sub_le _ _) t.isLt)).2.2.1 = keysOf m c (batchOf t.val t.isLt)
    ∧ (outsAt0 m c (t.val - 1) (Nat.lt_of_le_of_lt (Nat.sub_le _ _) t.isLt)).2.2.2 = valuesOf m c (batchOf t.val t.isLt) := by
  have hb : batchOf (t.val - 1) (Nat.lt_of_le_of_lt (Nat.sub_le _ _) t.isLt) = batchOf t.val t.isLt :=
    Fin.ext (by show (t.val - 1) / 8 = t.val / 8; omega)
  rw [← hb]
  exact scratch_inv m c _ _

/-! ## The two output blocks at a point -/

/-- The probabilities block at point `t`. -/
theorem probs_at (c : Dev nD) (t : Fin cfg0.N) (u : Fin 1) (r : Fin 256) (j : Fin 2048) :
    ((outsAt0 m c t.val t.isLt).2.1 : Vec Ideal S1x256x2048 .f32) (ix3 u r j)
      = probs (argQ m c) (argK m c) (argWq m c) (argWk m c) (batchOf t.val t.isLt) (rowOf t.val r) j := by
  have key : ∀ kp : Vec Ideal S2048x64 .f32, kp = keysOf m c (batchOf t.val t.isLt) →
      k0_pay5 (F := Ideal) (iblk m c 0 t) (iblk m c 3 t) kp (ix3 u r j)
        = probs (argQ m c) (argK m c) (argWq m c) (argWk m c) (batchOf t.val t.isLt) (rowOf t.val r) j := by
    intro kp hkp
    rw [wq_block m c t]
    refine (Payloads.probs_block_apply _ _ kp u r j).trans ?_
    exact tileProbs_eq _ (argQ m c) (argK m c) (argWq m c) (argWk m c) kp (batchOf t.val t.isLt) (rowOf t.val)
      (fun s d => qTile_apply m c t s d) (fun j e => by rw [hkp]; rfl) r j
  by_cases h0 : t.val % 8 = 0
  · rw [probs_first m c t h0]
    exact key _ (keys_block m c t)
  · rw [probs_later m c t h0]
    exact key _ (prev_scratch m c t h0).1

/-- The attention block at point `t`. -/
theorem att_at (c : Dev nD) (t : Fin cfg0.N) (u : Fin 1) (r : Fin 256) (e : Fin 64) :
    ((outsAt0 m c t.val t.isLt).1 : Vec Ideal S1x256x64 .f32) (ix3 u r e)
      = att (argQ m c) (argK m c) (argV m c) (argWq m c) (argWk m c) (argWv m c) (batchOf t.val t.isLt)
          (rowOf t.val r) e := by
  have key : ∀ kp vp : Vec Ideal S2048x64 .f32, kp = keysOf m c (batchOf t.val t.isLt) →
      vp = valuesOf m c (batchOf t.val t.isLt) →
      k0_pay1 (F := Ideal) (k0_pay6 (iblk m c 0 t) (iblk m c 3 t) kp vp) (ix3 u r e)
        = att (argQ m c) (argK m c) (argV m c) (argWq m c) (argWk m c) (argWv m c) (batchOf t.val t.isLt)
            (rowOf t.val r) e := by
    intro kp vp hkp hvp
    rw [wq_block m c t]
    refine (Payloads.att_block_apply _ u r e).trans ?_
    refine (Payloads.att_apply _ _ kp vp r e).trans ?_
    exact tileAtt_eq _ (argQ m c) (argK m c) (argWq m c) (argWk m c) kp (batchOf t.val t.isLt) (rowOf t.val)
      (fun s d => qTile_apply m c t s d) (fun j e => by rw [hkp]; rfl) (argV m c) (argWv m c) vp
      (fun j e => by rw [hvp]; rfl) r e
  by_cases h0 : t.val % 8 = 0
  · rw [att_first m c t h0]
    exact key _ _ (keys_block m c t) (values_block m c t)
  · rw [att_later m c t h0]
    exact key _ _ (prev_scratch m c t h0).1 (prev_scratch m c t h0).2

end Cert.KernelIdeal.Points

end
-- ==== Proof.KernelArrays.lean ====
/-
  The kernel's two result arrays after the run are the specification's two arrays.

  Point `t` writes its attention block back to rows `(t % 8) · 256 … + 255` of batch `t / 8` of the first result and its
  probabilities block to the same rows of the second. Both blocks are the specification's entries at those rows
  (the per-point values), so each write-back is the block of the specification's array that the window cuts out at
  `t`. Every index `(i₀, i₁, i₂)` of either result lies in the block of point `8 · i₀ + i₁ / 256`, so the blocks cover
  the arrays, and the arrays end holding the specification's values everywhere.
-/
import proofs.«133351_j85907935854651_2_alg».proof.Proof.KernelPoints

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem Cert.AttentionSpec Cert.KernelIdeal.Points
open Idealize.ShloMosaic.Pipeline (Dat)

variable (m : (ℓ : Loc nD τ sig) → Buf (Elt Ideal) ℓ) (ρ : Dev nD → PrngReg)

/-- The specification's two arrays of core `c`'s arguments. -/
def attOf (c : Dev nD) : (⟨3, ![8, 2048, 64]⟩ : Shape).Idx → EReal :=
  attArr (argQ m c) (argK m c) (argV m c) (argWq m c) (argWk m c) (argWv m c)
def probsOf (c : Dev nD) : (⟨3, ![8, 2048, 2048]⟩ : Shape).Idx → EReal :=
  probsArr (argQ m c) (argK m c) (argWq m c) (argWk m c)

/-! ## The probabilities -/

/-- What point `t` writes back to the second result is block `t` of the specification's probabilities. -/
theorem flushed_probs (c : Dev nD) (t : Fin cfg0.N) :
    (dats m 0 c).flushed 7 t = ((cfg0.win 7).blk t).view.read (Elt Ideal) (probsOf m c) := by
  rw [Value.flushed7]
  obtain ⟨-, -, -, -, -, -, -, ⟨e0, e1, e2⟩⟩ := idx_facts t
  funext (y : S1x256x2048.Idx)
  obtain ⟨u, r, j, rfl⟩ : ∃ (u : Fin 1) (r : Fin 256) (j : Fin 2048), y = ix3 u r j := ⟨y 0, y 1, y 2, eq_ix3 y⟩
  show ((outsAt0 m c t.val t.isLt).2.1 : Vec Ideal S1x256x2048 .f32) (ix3 u r j)
    = probsOf m c (((cfg0.win 7).blk t).view.emb (ix3 u r j))
  rw [probs_at m c t u r j]
  have hu : u.val = 0 := by have := u.isLt; omega
  have h0 : (((cfg0.win 7).blk t).view.emb (ix3 u r j)) 0 = batchOf t.val t.isLt :=
    Fin.ext (by show win0_7.index t (0 : Fin 3) * 1 + 1 * u.val = t.val / 8; rw [e0, hu]; omega)
  have h1 : (((cfg0.win 7).blk t).view.emb (ix3 u r j)) 1 = rowOf t.val r :=
    Fin.ext (by show win0_7.index t (1 : Fin 3) * 256 + 1 * r.val = t.val % 8 * 256 + r.val; rw [e1]; omega)
  have h2 : (((cfg0.win 7).blk t).view.emb (ix3 u r j)) 2 = j :=
    Fin.ext (by show win0_7.index t (2 : Fin 3) * 2048 + 1 * j.val = j.val; rw [e2]; omega)
  show _ = probs (argQ m c) (argK m c) (argWq m c) (argWk m c) _ _ _
  rw [h0, h1, h2]

/-- An index of the second result is in point `t`'s block iff each coordinate is in the block's range. -/
theorem mem_blk_probs (t : Fin cfg0.N) (i : S8x2048x2048.Idx) :
    i ∈ ((cfg0.win 7).blk t).view.set ↔ ∀ a : Fin 3, win0_7.index t a * S1x256x2048.size a ≤ (i a).val
      ∧ (i a).val < win0_7.index t a * S1x256x2048.size a + S1x256x2048.size a := by
  show i ∈ ((View.whole main_v0_1).slice (win0_7.rect t)).set ↔ _
  rw [View.set_slice_whole, Rect.mem_set_unit]
  exact Iff.rfl

/-- Every index of the second result is in the block of point `8 · i₀ + i₁ / 256`. -/
theorem cover_probs (i : S8x2048x2048.Idx) :
    ∃ t : Fin cfg0.N, (cfg0.win 7).flush t = true ∧ i ∈ ((cfg0.win 7).blk t).view.set := by
  have b0 : (i 0).val < 8 := (i 0).isLt
  have b1 : (i 1).val < 2048 := (i 1).isLt
  have b2 : (i 2).val < 2048 := (i 2).isLt
  have hN := points
  obtain ⟨t, ht⟩ : ∃ t : Fin cfg0.N, t.val = (i 0).val * 8 + (i 1).val / 256 := ⟨⟨_, by omega⟩, rfl⟩
  obtain ⟨-, -, -, -, -, -, -, ⟨e0, e1, e2⟩⟩ := idx_facts t
  refine ⟨t, flush0_7 t, ?_⟩
  rw [mem_blk_probs]
  intro a
  match a with
  | ⟨0, _⟩ =>
    show win0_7.index t (0 : Fin 3) * 1 ≤ (i 0).val ∧ (i 0).val < win0_7.index t (0 : Fin 3) * 1 + 1
    rw [e0, ht]; omega
  | ⟨1, _⟩ =>
    show win0_7.index t (1 : Fin 3) * 256 ≤ (i 1).val ∧ (i 1).val < win0_7.index t (1 : Fin 3) * 256 + 256
    rw [e1, ht]; omega
  | ⟨2, _⟩ =>
    show win0_7.index t (2 : Fin 3) * 2048 ≤ (i 2).val ∧ (i 2).val < win0_7.index t (2 : Fin 3) * 2048 + 2048
    rw [e2]; omega

/-- The second result after the run. -/
theorem final_probs (c : Dev nD) : (dats m 0 c).arrAt 7 cfg0.N = probsOf m c :=
  (dats m 0 c).arrAt_eq_of_cover 7 (probsOf m c) (fun t _ => flushed_probs m c t) cover_probs

/-! ## The attention output -/

/-- What point `t` writes back to the first result is block `t` of the specification's attention output. -/
theorem flushed_att (c : Dev nD) (t : Fin cfg0.N) :
    (dats m 0 c).flushed 6 t = ((cfg0.win 6).blk t).view.read (Elt Ideal) (attOf m c) := by
  rw [Value.flushed6]
  obtain ⟨-, -, -, -, -, -, ⟨e0, e1, e2⟩, -⟩ := idx_facts t
  funext (y : S1x256x64.Idx)
  obtain ⟨u, r, e, rfl⟩ : ∃ (u : Fin 1) (r : Fin 256) (e : Fin 64), y = ix3 u r e := ⟨y 0, y 1, y 2, eq_ix3 y⟩
  show ((outsAt0 m c t.val t.isLt).1 : Vec Ideal S1x256x64 .f32) (ix3 u r e)
    = attOf m c (((cfg0.win 6).blk t).view.emb (ix3 u r e))
  rw [att_at m c t u r e]
  have hu : u.val = 0 := by have := u.isLt; omega
  have h0 : (((cfg0.win 6).blk t).view.emb (ix3 u r e)) 0 = batchOf t.val t.isLt :=
    Fin.ext (by show win0_6.index t (0 : Fin 3) * 1 + 1 * u.val = t.val / 8; rw [e0, hu]; omega)
  have h1 : (((cfg0.win 6).blk t).view.emb (ix3 u r e)) 1 = rowOf t.val r :=
    Fin.ext (by show win0_6.index t (1 : Fin 3) * 256 + 1 * r.val = t.val % 8 * 256 + r.val; rw [e1]; omega)
  have h2 : (((cfg0.win 6).blk t).view.emb (ix3 u r e)) 2 = e :=
    Fin.ext (by show win0_6.index t (2 : Fin 3) * 64 + 1 * e.val = e.val; rw [e2]; omega)
  show _ = att (argQ m c) (argK m c) (argV m c) (argWq m c) (argWk m c) (argWv m c) _ _ _
  rw [h0, h1, h2]

/-- An index of the first result is in point `t`'s block iff each coordinate is in the block's range. -/
theorem mem_blk_att (t : Fin cfg0.N) (i : S8x2048x64.Idx) :
    i ∈ ((cfg0.win 6).blk t).view.set ↔ ∀ a : Fin 3, win0_6.index t a * S1x256x64.size a ≤ (i a).val
      ∧ (i a).val < win0_6.index t a * S1x256x64.size a + S1x256x64.size a := by
  show i ∈ ((View.whole main_v0_0).slice (win0_6.rect t)).set ↔ _
  rw [View.set_slice_whole, Rect.mem_set_unit]
  exact Iff.rfl

/-- Every index of the first result is in the block of point `8 · i₀ + i₁ / 256`. -/
theorem cover_att (i : S8x2048x64.Idx) :
    ∃ t : Fin cfg0.N, (cfg0.win 6).flush t = true ∧ i ∈ ((cfg0.win 6).blk t).view.set := by
  have b0 : (i 0).val < 8 := (i 0).isLt
  have b1 : (i 1).val < 2048 := (i 1).isLt
  have b2 : (i 2).val < 64 := (i 2).isLt
  have hN := points
  obtain ⟨t, ht⟩ : ∃ t : Fin cfg0.N, t.val = (i 0).val * 8 + (i 1).val / 256 := ⟨⟨_, by omega⟩, rfl⟩
  obtain ⟨-, -, -, -, -, -, ⟨e0, e1, e2⟩, -⟩ := idx_facts t
  refine ⟨t, flush0_6 t, ?_⟩
  rw [mem_blk_att]
  intro a
  match a with
  | ⟨0, _⟩ =>
    show win0_6.index t (0 : Fin 3) * 1 ≤ (i 0).val ∧ (i 0).val < win0_6.index t (0 : Fin 3) * 1 + 1
    rw [e0, ht]; omega
  | ⟨1, _⟩ =>
    show win0_6.index t (1 : Fin 3) * 256 ≤ (i 1).val ∧ (i 1).val < win0_6.index t (1 : Fin 3) * 256 + 256
    rw [e1, ht]; omega
  | ⟨2, _⟩ =>
    show win0_6.index t (2 : Fin 3) * 64 ≤ (i 2).val ∧ (i 2).val < win0_6.index t (2 : Fin 3) * 64 + 64
    rw [e2]; omega

/-- The first result after the run. -/
theorem final_att (c : Dev nD) : (dats m 0 c).arrAt 6 cfg0.N = attOf m c :=
  (dats m 0 c).arrAt_eq_of_cover 6 (attOf m c) (fun t _ => flushed_att m c t) cover_att

/-! ## The run -/

/-- Every weakly fair execution of the idealized kernel terminates with the two results at the specification's
    arrays of the arguments, and the arguments unchanged. -/
theorem run : θ_run defs (onTc (τ := τ) (main (F := Ideal))) ⟨m, fun _ => 0, ρ⟩ fun r => ∀ c : Dev nD,
      r.2.mem ((c : Thread nD τ).loc main_v0_0) = attOf m c
      ∧ r.2.mem ((c : Thread nD τ).loc main_v0_1) = probsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono
    (fun r h c => ⟨(h c).1.trans (final_att m c), (h c).2.1.trans (final_probs m c), (h c).2.2⟩)
    (Value.run_blocks m ρ)

end Cert.KernelIdeal.Arrays

end
-- ==== Proof.ReferenceIsSpec.lean ====
/-
  The reference program's two results are the specification's two arrays.

  The reference computes three linear projections, the scaled scores of every query row against every key row,
  a softmax along each score row (a maximum folded from -∞ and taken once more against -∞, the exponential of the
  difference, a sum from 0, a division) and the product of the probabilities with the projected values. Each
  stage is read here at explicit coordinates `(b, i, j)` or `(b, s, e)` and identified with the specification's
  entry of the same name; the two results then agree with the specification index by index.
-/
import proofs.«133351_j85907935854651_2_alg».proof.Proof.Gen.ReferenceIdeal.Read
import proofs.«133351_j85907935854651_2_alg».proof.Proof.AttentionSpec
import Idealize.ShloMosaic.Lib.ValueIdx
import Idealize.ShloMosaic.PureOps.Ideal.Laws

noncomputable section

namespace Cert.ReferenceValue

open Cert.ReferenceIdeal Cert.ReferenceIdeal.Read Cert.AttentionSpec Idealize.ShloMosaic Idealize.ShloMosaic.ValueIdx

/-- An activation array `[8, 2048, 1024]` and a weight array `[64, 1024]` as the program types them. -/
abbrev ActC : Type := (⟨S8x2048x1024, .f32⟩ : BufTy).Contents (Elt Ideal)
abbrev WtC : Type := (⟨S64x1024, .f32⟩ : BufTy).Contents (Elt Ideal)

/-! ## The projections -/

/-- The first projection at `(b, s, e)`: row `(b, s)` of the first activation against row `e` of its weight. -/
theorem v0_at (x0 : ActC) (x3 : WtC) (b : Fin 8) (s : Fin 2048) (e : Fin 64) :
    val_main_v0 (F := Ideal) x0 x3 (ix3 b s e) = proj x0 x3 b s e := by
  rw [val_main_v0_apply]
  unfold proj
  refine Finset.sum_congr rfl fun k _ => ?_
  have el : lidx_main_v0 (ix3 b s e) k = ix3 b s k :=
    funext fun a => Fin.ext (by match a with | ⟨0, _⟩ => rfl | ⟨1, _⟩ => rfl | ⟨2, _⟩ => rfl)
  have er : ridx_main_v0 (ix3 b s e) k = ix2 e k :=
    funext fun a => Fin.ext (by match a with | ⟨0, _⟩ => rfl | ⟨1, _⟩ => rfl)
  rw [el, er]

/-- The second projection likewise. -/
theorem v1_at (x1 : ActC) (x4 : WtC) (b : Fin 8) (s : Fin 2048) (e : Fin 64) :
    val_main_v1 (F := Ideal) x1 x4 (ix3 b s e) = proj x1 x4 b s e := by
  rw [val_main_v1_apply]
  unfold proj
  refine Finset.sum_congr rfl fun k _ => ?_
  have el : lidx_main_v1 (ix3 b s e) k = ix3 b s k :=
    funext fun a => Fin.ext (by match a with | ⟨0, _⟩ => rfl | ⟨1, _⟩ => rfl | ⟨2, _⟩ => rfl)
  have er : ridx_main_v1 (ix3 b s e) k = ix2 e k :=
    funext fun a => Fin.ext (by match a with | ⟨0, _⟩ => rfl | ⟨1, _⟩ => rfl)
  rw [el, er]

/-- The third projection likewise. -/
theorem v2_at (x2 : ActC) (x5 : WtC) (b : Fin 8) (s : Fin 2048) (e : Fin 64) :
    val_main_v2 (F := Ideal) x2 x5 (ix3 b s e) = proj x2 x5 b s e := by
  rw [val_main_v2_apply]
  unfold proj
  refine Finset.sum_congr rfl fun k _ => ?_
  have el : lidx_main_v2 (ix3 b s e) k = ix3 b s k :=
    funext fun a => Fin.ext (by match a with | ⟨0, _⟩ => rfl | ⟨1, _⟩ => rfl | ⟨2, _⟩ => rfl)
  have er : ridx_main_v2 (ix3 b s e) k = ix2 e k :=
    funext fun a => Fin.ext (by match a with | ⟨0, _⟩ => rfl | ⟨1, _⟩ => rfl)
  rw [el, er]

/-! ## The scores -/

/-- The unscaled score at `(b, i, j)`: the inner product of projected query row `i` and projected key row `j`. -/
theorem v3_at (x0 x1 : ActC) (x3 x4 : WtC) (b : Fin 8) (i j : Fin 2048) :
    val_main_v3 (F := Ideal) x0 x1 x3 x4 (ix3 b i j) = ∑ e : Fin 64, proj x0 x3 b i e * proj x1 x4 b j e := by
  rw [val_main_v3_apply]
  refine Finset.sum_congr rfl fun k _ => ?_
  have el : lidx_main_v3 (ix3 b i j) k = ix3 b i k :=
    funext fun a => Fin.ext (by match a with | ⟨0, _⟩ => rfl | ⟨1, _⟩ => rfl | ⟨2, _⟩ => rfl)
  have er : ridx_main_v3 (ix3 b i j) k = ix3 b j k :=
    funext fun a => Fin.ext (by match a with | ⟨0, _⟩ => rfl | ⟨1, _⟩ => rfl | ⟨2, _⟩ => rfl)
  rw [el, er, v0_at, v1_at]

/-- The scaled score: the program divides by the word of `64`, the specification multiplies by the word of `2⁻⁶`. -/
theorem v5_at (x0 x1 : ActC) (x3 x4 : WtC) (b : Fin 8) (i j : Fin 2048) :
    val_main_v5 (F := Ideal) x0 x1 x3 x4 (ix3 b i j) = score x0 x1 x3 x4 b i j := by
  rw [val_main_v5_apply, val_main_v4_apply, val_main_cst_apply, v3_at, Ideal.hostDivf_def, Ideal.ofBits_def,
    div_sixtyfour]
  rfl

/-! ## The row maximum -/

/-- The maximum-reduction over the last axis at `(b, i)`: the fold of `max` from `-∞` over the scores of row `(b, i)`. -/
theorem v6_at (x0 x1 : ActC) (x3 x4 : WtC) (b : Fin 8) (i : Fin 2048) :
    val_main_v6 (F := Ideal) x0 x1 x3 x4 (ix2 b i)
      = (Finset.univ : Finset (Fin 2048)).fold max (Ideal.ofBits .f32 0xFF800000#32)
          (fun j => score x0 x1 x3 x4 b i j) := by
  unfold val_main_v6
  have hy : ∀ j : Fin 2048, val_main_v5 (F := Ideal) x0 x1 x3 x4 (ix3 b i j) = score x0 x1 x3 x4 b i j :=
    fun j => v5_at x0 x1 x3 x4 b i j
  generalize val_main_v5 (F := Ideal) x0 x1 x3 x4 = y at hy ⊢
  have h : S8x2048x2048.Reduces [2] S8x2048 := by decide
  refine (Host.reduce_eq_fold_single (FloatOps.maximumf (F := Ideal) (φ := .f32)) y _
    Facts₀.reducesTo_S8x2048x2048_S8x2048_d2 h Facts₀.h_S_ (ix2 b i)).trans ?_
  have hl : ∀ k : Fin 2048, h.lift (ix2 b i) k = ix3 b i k := fun k =>
    funext fun c => Fin.ext (by match c with | ⟨0, _⟩ => rfl | ⟨1, _⟩ => rfl | ⟨2, _⟩ => rfl)
  have hf : (y ∘ h.lift (ix2 b i)) = fun k : Fin 2048 => score x0 x1 x3 x4 b i k :=
    funext fun k => (congrArg y (hl k)).trans (hy k)
  exact congrArg (fun f => Finset.fold max (Ideal.ofBits .f32 0xFF800000#32) f (Finset.univ : Finset (Fin 2048))) hf

/-- One more maximum against `-∞` changes nothing: the stage the softmax subtracts is the specification's row maximum. -/
theorem v8_at (x0 x1 : ActC) (x3 x4 : WtC) (b : Fin 8) (i : Fin 2048) :
    val_main_v8 (F := Ideal) x0 x1 x3 x4 (ix2 b i) = rowMax x0 x1 x3 x4 b i := by
  rw [val_main_v8_apply, val_main_v7_apply, val_main_cst_1_apply, v6_at, Ideal.maximumf_def, Ideal.ofBits_def]
  exact max_fold_start _ _

/-! ## The softmax weights, their sum, and the probabilities -/

/-- The exponential of the score less its row's maximum, the maximum read through its two broadcasts. -/
theorem v12_at (x0 x1 : ActC) (x3 x4 : WtC) (b : Fin 8) (i j : Fin 2048) :
    val_main_v12 (F := Ideal) x0 x1 x3 x4 (ix3 b i j) = weight x0 x1 x3 x4 b i j := by
  have e10 : idx_main_v9 (idx_main_v10 (ix3 b i j)) = ix2 b i :=
    funext fun a => Fin.ext (by match a with | ⟨0, _⟩ => rfl | ⟨1, _⟩ => rfl)
  rw [val_main_v12_apply, val_main_v11_apply, val_main_v10_apply, val_main_v9_apply, e10, v5_at, v8_at,
    Ideal.hostUnary_exp_def, Ideal.subf_def]
  rfl

/-- The add-reduction over the last axis at `(b, i)`: the sum of row `(b, i)`'s weights (it starts from the word of `0`). -/
theorem v13_at (x0 x1 : ActC) (x3 x4 : WtC) (b : Fin 8) (i : Fin 2048) :
    val_main_v13 (F := Ideal) x0 x1 x3 x4 (ix2 b i) = ∑ j : Fin 2048, weight x0 x1 x3 x4 b i j := by
  rw [val_main_v13_apply, val_main_cst_2_apply, Ideal.ofBits_def, Ideal.ofBits_zero_f32, zero_add]
  refine Finset.sum_congr rfl fun k _ => ?_
  have e : idx_main_v13 (ix2 b i) k = ix3 b i k :=
    funext fun a => Fin.ext (by match a with | ⟨0, _⟩ => rfl | ⟨1, _⟩ => rfl | ⟨2, _⟩ => rfl)
  rw [e, v12_at]

/-- The probability at `(b, i, j)`: the weight over its row's sum, the sum read through its two broadcasts. -/
theorem v16_at (x0 x1 : ActC) (x3 x4 : WtC) (b : Fin 8) (i j : Fin 2048) :
    val_main_v16 (F := Ideal) x0 x1 x3 x4 (ix3 b i j) = probs x0 x1 x3 x4 b i j := by
  have e15 : idx_main_v14 (idx_main_v15 (ix3 b i j)) = ix2 b i :=
    funext fun a => Fin.ext (by match a with | ⟨0, _⟩ => rfl | ⟨1, _⟩ => rfl)
  rw [val_main_v16_apply, val_main_v15_apply, val_main_v14_apply, e15, v12_at, v13_at, Ideal.hostDivf_def]
  rfl

/-! ## The two results -/

/-- The reference's second result, the probabilities, is the specification's array. -/
theorem probs_eq (x0 x1 : (⟨S8x2048x1024, .f32⟩ : BufTy).Contents (Elt Ideal)) (x3 x4 : (⟨S64x1024, .f32⟩ : BufTy).Contents (Elt Ideal)) :
    Cert.ReferenceIdeal.Read.val_main_v16 (F := Ideal) x0 x1 x3 x4 = Cert.AttentionSpec.probsArr x0 x1 x3 x4 := by
  funext (y : S8x2048x2048.Idx)
  obtain ⟨b, i, j, rfl⟩ : ∃ (b : Fin 8) (i j : Fin 2048), y = ix3 b i j := ⟨y 0, y 1, y 2, eq_ix3 y⟩
  exact (v16_at x0 x1 x3 x4 b i j).trans rfl

/-- The attention output at `(b, i, e)`: row `(b, i)` of the probabilities against column `e` of the projected values. -/
theorem v17_at (x0 x1 x2 : ActC) (x3 x4 x5 : WtC) (b : Fin 8) (i : Fin 2048) (e : Fin 64) :
    val_main_v17 (F := Ideal) x0 x1 x2 x3 x4 x5 (ix3 b i e) = att x0 x1 x2 x3 x4 x5 b i e := by
  rw [val_main_v17_apply]
  unfold att
  refine Finset.sum_congr rfl fun k _ => ?_
  have el : lidx_main_v17 (ix3 b i e) k = ix3 b i k :=
    funext fun a => Fin.ext (by match a with | ⟨0, _⟩ => rfl | ⟨1, _⟩ => rfl | ⟨2, _⟩ => rfl)
  have er : ridx_main_v17 (ix3 b i e) k = ix3 b k e :=
    funext fun a => Fin.ext (by match a with | ⟨0, _⟩ => rfl | ⟨1, _⟩ => rfl | ⟨2, _⟩ => rfl)
  rw [el, er, v16_at, v2_at]

/-- The reference's first result, the attention output, is the specification's array. -/
theorem att_eq (x0 x1 x2 : (⟨S8x2048x1024, .f32⟩ : BufTy).Contents (Elt Ideal)) (x3 x4 x5 : (⟨S64x1024, .f32⟩ : BufTy).Contents (Elt Ideal)) :
    Cert.ReferenceIdeal.Read.val_main_v17 (F := Ideal) x0 x1 x2 x3 x4 x5 = Cert.AttentionSpec.attArr x0 x1 x2 x3 x4 x5 := by
  funext (y : S8x2048x64.Idx)
  obtain ⟨b, i, e, rfl⟩ : ∃ (b : Fin 8) (i : Fin 2048) (e : Fin 64), y = ix3 b i e := ⟨y 0, y 1, y 2, eq_ix3 y⟩
  exact (v17_at x0 x1 x2 x3 x4 x5 b i e).trans rfl

end Cert.ReferenceValue

end
-- ==== Proof.lean ====
/-
  A fused single-head attention kernel against its reference, on the extended reals.

  Both programs compute, from `q k v : [8, 2048, 1024]` and `wq wk wv : [64, 1024]`,
      probs (b, i, j) = softmax_j ((q wqᵀ)(b, i, ·) · (k wkᵀ)(b, j, ·) / 64)      and      att = probs · (v wvᵀ).
  The kernel projects a batch's keys and values once, at the batch's first tile of 256 query rows, into two scratch
  arrays that the batch's other seven tiles read; it rounds matrix-product operands to bf16 (no change at the ideal
  values), multiplies the scores by `2⁻⁶` where the reference divides by `64` (equal at every extended real, the
  infinities included), and takes each row maximum once where the reference takes it once more against `-∞` (no
  change). No law used needs the inputs finite, so the precondition is never opened.

  The specification (Proof/AttentionSpec.lean) states both results as one function of the six arguments. The
  reference's run is read stage by stage onto it (Proof/ReferenceIsSpec.lean). On the kernel's side: the body's
  arithmetic entry by entry (Proof/KernelPayloads.lean over Proof/AttentionTile.lean), what one run of the body leaves
  in its buffers (Proof/KernelPieces.lean), the scratch arrays after every grid point by induction and the two
  output blocks at every point (Proof/KernelPoints.lean), and the two result arrays from their blocks
  (Proof/KernelArrays.lean). The three frames are the generated frame runs, the reference's with its results dropped.
-/
import proofs.«133351_j85907935854651_2_alg».proof.Defs
import proofs.«133351_j85907935854651_2_alg».proof.Proof.Gen.Kernel
import proofs.«133351_j85907935854651_2_alg».proof.Proof.Gen.Kernel.Skeleton
import proofs.«133351_j85907935854651_2_alg».proof.Proof.Gen.Kernel.Launch
import proofs.«133351_j85907935854651_2_alg».proof.Proof.Gen.Kernel.Points
import proofs.«133351_j85907935854651_2_alg».proof.Proof.Gen.Kernel.Frame
import proofs.«133351_j85907935854651_2_alg».proof.Proof.Gen.KernelIdeal
import proofs.«133351_j85907935854651_2_alg».proof.Proof.Gen.KernelIdeal.Skeleton
import proofs.«133351_j85907935854651_2_alg».proof.Proof.Gen.KernelIdeal.Launch
import proofs.«133351_j85907935854651_2_alg».proof.Proof.Gen.KernelIdeal.Points
import proofs.«133351_j85907935854651_2_alg».proof.Proof.Gen.KernelIdeal.Frame
import proofs.«133351_j85907935854651_2_alg».proof.Proof.Gen.ReferenceIdeal
import proofs.«133351_j85907935854651_2_alg».proof.Proof.Gen.Pre_finite_inputs
import proofs.«133351_j85907935854651_2_alg».proof.Proof.Gen.KernelIdeal.Value
import proofs.«133351_j85907935854651_2_alg».proof.Proof.Gen.ReferenceIdeal.Run
import proofs.«133351_j85907935854651_2_alg».proof.Proof.Gen.ReferenceIdeal.Read
import proofs.«133351_j85907935854651_2_alg».proof.Proof.KernelArrays
import proofs.«133351_j85907935854651_2_alg».proof.Proof.ReferenceIsSpec
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its run, with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealized kernel is the kernel's own text read at the ideal values: nothing was rewritten. -/
theorem preserves : Cert.preserves_Kernel_KernelIdeal := trivial

/-- From memories agreeing on the six arguments both programs end with the specification's attention output and
    probabilities of those arguments. -/
theorem algebraic : Cert.algebraic_KernelIdeal_ReferenceIdeal := by
  intro m ρ m' ρ' _ hagree
  refine ⟨fun c => Cert.KernelIdeal.Arrays.attOf m c, fun c => Cert.KernelIdeal.Arrays.probsOf m c,
    Cert.KernelIdeal.Arrays.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v17_eq, Cert.ReferenceValue.att_eq, (hagree c).1, (hagree c).2.1,
      (hagree c).2.2.1, (hagree c).2.2.2.1, (hagree c).2.2.2.2.1, (hagree c).2.2.2.2.2]
    rfl
  · rw [Cert.ReferenceIdeal.Read.val_main_v16_eq, Cert.ReferenceValue.probs_eq, (hagree c).1, (hagree c).2.1,
      (hagree c).2.2.2.1, (hagree c).2.2.2.2.1]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
